-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S8192x8192 : Shape := ⟨2, ![8192, 8192]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .bf16⟩
  | .hbm, ⟨2, _⟩ => ⟨S8192x8192, .f32⟩
  | .local _ .vmem, ⟨0, _⟩ => ⟨S1024x64, .bf16⟩
  | .local _ .vmem, ⟨1, _⟩ => ⟨S1024x64, .bf16⟩
  | .local _ .vmem, ⟨2, _⟩ => ⟨S2048x64, .bf16⟩
  | .local _ .vmem, ⟨3, _⟩ => ⟨S2048x64, .bf16⟩
  | .local _ .vmem, ⟨4, _⟩ => ⟨S1024x2048, .f32⟩
  | .local _ .vmem, ⟨5, _⟩ => ⟨S1024x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S1024x64_S1024 : S1024x64.Reduces [1] S1024
  shapeCasts_S1024_S1024x1 : S1024.ShapeCasts S1024x1
  reduces_S2048x64_S2048 : S2048x64.Reduces [1] S2048
  shapeCasts_S2048_S2048x1 : S2048.ShapeCasts S2048x1
  transposes_S2048x1_p1_0_S1x2048 : S2048x1.Transposes [1, 0] S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .bf16 = 32 ∨ (Rect.block (s := S8192x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S64x8192 : Shape := ⟨2, ![64, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S_, .f32⟩
  | .hbm, ⟨3, _⟩ => ⟨S8192, .f32⟩
  | .hbm, ⟨4, _⟩ => ⟨S64x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  transposes_S8192x64_S64x8192_1_0 : S8192x64.Transposes [1, 0] S64x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.K.Body.lean ====
/-
  The kernel body of the pairwise-distance kernel, run once on whole staging buffers.

  The body reads a block of 1024 rows and a block of 2048 rows of the (rounded) input, both of width 64, and
  overwrites the whole 1024 x 2048 output buffer with ONE value: the square root of the clamped norm expansion
  ‖a‖² + ‖b‖² − 2⟨a,b⟩ of every pair of rows, written by a single store through the rectangle that is the whole
  buffer. It also loads the output buffer once before that store; nothing is computed from that load. So after the
  body the two input buffers hold what they held, and the output buffer holds that one value as a function of the
  two input blocks (`tile`).
-/
import proofs.«150555_j22445499089117_2_alg».proof.Proof.Gen.Kernel.Launch
import proofs.«150555_j22445499089117_2_alg».proof.Proof.Gen.Kernel.Skeleton
import proofs.«150555_j22445499089117_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024 x 64 buffer as a rectangle (the first input's load), -/
abbrev rowsA : Rect S1024x64 := Rect.unit (s := S1024x64) ![0, 0] S1024x64.size inb_S1024x64_S1024x64_0_0
/-- the whole 2048 x 64 buffer (the second input's load), -/
abbrev rowsB : Rect S2048x64 := Rect.unit (s := S2048x64) ![0, 0] S2048x64.size inb_S2048x64_S2048x64_0_0
/-- and the whole 1024 x 2048 buffer (the output's store). -/
abbrev whole : Rect S1024x2048 := Rect.unit (s := S1024x2048) ![0, 0] S1024x2048.size inb_S1024x2048_S1024x2048_0_0

/-- What the output buffer holds after the body, as a function of the two input buffers' contents: the one store's
    value, over the rectangle that is the whole buffer. -/
def tile (a : Vec F S1024x64 .bf16) (b : Vec F S2048x64 .bf16) : Vec F S1024x2048 .f32 :=
  View.canon [⟨whole, k0_pay1 (View.ld a rowsA) (View.ld b rowsB)⟩]

/-- The one store covers the buffer: its rectangle is the whole of it. -/
theorem tile_cover (p0 : Vec F S1024x2048 .f32) (y : S1024x2048.Idx) :
    ∃ pc ∈ ([⟨whole, p0⟩] : List (View.Piece (Elt F) S1024x2048 .f32)), y ∈ pc.1.set :=
  View.cover_of_tiled [⟨whole, p0⟩] S1024x2048.size (by rfl) y

set_option maxHeartbeats 1000000 in
/-- The body on whole staging buffers — the inputs' holding `a` and `b`, the output's holding anything — runs to its
    end leaving the inputs as they were and the output at `tile a b`. -/
theorem sound_kernel (c : Dev nD) (E : Set ℕ) (i : grid0.Coords)
    (arg2 : Memref sig .tc .vmem S1024x64 .bf16) (harg2 : arg2.IsWhole)
    (arg3 : Memref sig .tc .vmem S2048x64 .bf16) (harg3 : arg3.IsWhole)
    (arg4 : Memref sig .tc .vmem S1024x2048 .f32) (harg4 : arg4.IsWhole)
    (a : Vec F S1024x64 .bf16) (b : Vec F S2048x64 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tile a b)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.Kernel.Body

end
-- ==== Proof.K.Run.lean ====
/-
  The pairwise-distance kernel's run: every weakly fair execution of the program terminates without a fault, its
  argument array ends unchanged, and the result array ends at the contents the write-backs leave.

  The program rounds the argument once (a host operation), then launches one pipelined region over an 8 x 4 grid.
  The rounded array is handed to the kernel TWICE — once cut into blocks of 1024 rows, indexed by the first grid
  coordinate, once into blocks of 2048 rows, indexed by the second — so two input windows read one array. Neither
  writes it; each holds HALF of the array's ownership for the length of the region, and the two halves are the whole
  again at the end. The third window is the output, cut into 1024 x 2048 tiles, one per grid point, each written back
  at its point.

  At a grid point each input's staging buffer holds that window's block of the rounded array (whether or not it was
  fetched at this very point: when it was not, the block index has not moved), the body leaves the inputs alone, and
  the output's buffer ends at `Body.tile` of the two blocks.
-/
import proofs.«150555_j22445499089117_2_alg».proof.Proof.K.Body
import Idealize.ShloMosaic.Lib.Pipeline.Frame

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch contents after the one host operation (the
    rounding of the argument into the array both input windows read). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes the rounded array, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- Per core: the arrays as the region finds them; after the body each input's buffer at its block and the output's
    at `tile` of the two blocks; the invariant the core's scoped buffers that are no staging buffer (there is none);
    the rounded array held half by each of the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array, dealt between its two readers -/

/-- The two buffers behind the windows' arrays, whole at the region's entry, are the three windows' holdings: the
    rounded array's ownership halved between the two windows that read it, the result array whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v1] (by decide) (by decide), bigSep_W0]
  rw [(arr_whole0 0).set_eq_univ, (arr_whole0 2).set_eq_univ]
  show iprop((((c.tc : Thread nD τ).loc main_v0 ↦{fullShare} V m c main_v0) : sProp 𝕄)
      ∗ ((c.tc : Thread nD τ).loc main_v1 ↦{fullShare} V m c main_v1))
    ⊢ iprop(((c.tc : Thread nD τ).loc main_v0 ↦{fullShare.left} V m c main_v0)
    ∗ ((c.tc : Thread nD τ).loc main_v0 ↦{fullShare.right} V m c main_v0)
    ∗ ((c.tc : Thread nD τ).loc main_v1 ↦{fullShare} V m c main_v1))
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-! ## The invariant at the region's ends -/

theorem phi_in (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, H⟩; iexact H

theorem phi_out (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = Pipeline.scopedRest (Ix := Unit) (Name := ℕ) (U := UR sig nD τ) (Lvl := ℕ) (Val := Elt F) spec0 c from rfl]
  iintro H; isplitr; · iempintro
  iexact H

/-! ## The run -/

set_option backward.isDefEq.respectTransparency.types false in
/-- Every weakly fair execution of the program terminates; at the end every window's array holds what the
    write-backs leave (an input array its entry contents), and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := phi_in m) (hout := phi_out m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The program runs and its argument ends unchanged: no window stages the argument array, so it is among the
    buffers the region passes by, and the host operation before the region did not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c))
    (run_main m ρ)

end Cert.Kernel.Run

end
-- ==== Proof.KI.Body.lean ====
/-
  The kernel body of the pairwise-distance kernel, run once on whole staging buffers.

  The body reads a block of 1024 rows and a block of 2048 rows of the (rounded) input, both of width 64, and
  overwrites the whole 1024 x 2048 output buffer with ONE value: the square root of the clamped norm expansion
  ‖a‖² + ‖b‖² − 2⟨a,b⟩ of every pair of rows, written by a single store through the rectangle that is the whole
  buffer. It also loads the output buffer once before that store; nothing is computed from that load. So after the
  body the two input buffers hold what they held, and the output buffer holds that one value as a function of the
  two input blocks (`tile`).
-/
import proofs.«150555_j22445499089117_2_alg».proof.Proof.Gen.KernelIdeal.Launch
import proofs.«150555_j22445499089117_2_alg».proof.Proof.Gen.KernelIdeal.Skeleton
import proofs.«150555_j22445499089117_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 1024 x 64 buffer as a rectangle (the first input's load), -/
abbrev rowsA : Rect S1024x64 := Rect.unit (s := S1024x64) ![0, 0] S1024x64.size inb_S1024x64_S1024x64_0_0
/-- the whole 2048 x 64 buffer (the second input's load), -/
abbrev rowsB : Rect S2048x64 := Rect.unit (s := S2048x64) ![0, 0] S2048x64.size inb_S2048x64_S2048x64_0_0
/-- and the whole 1024 x 2048 buffer (the output's store). -/
abbrev whole : Rect S1024x2048 := Rect.unit (s := S1024x2048) ![0, 0] S1024x2048.size inb_S1024x2048_S1024x2048_0_0

/-- What the output buffer holds after the body, as a function of the two input buffers' contents: the one store's
    value, over the rectangle that is the whole buffer. -/
def tile (a : Vec F S1024x64 .bf16) (b : Vec F S2048x64 .bf16) : Vec F S1024x2048 .f32 :=
  View.canon [⟨whole, k0_pay1 (View.ld a rowsA) (View.ld b rowsB)⟩]

/-- The one store covers the buffer: its rectangle is the whole of it. -/
theorem tile_cover (p0 : Vec F S1024x2048 .f32) (y : S1024x2048.Idx) :
    ∃ pc ∈ ([⟨whole, p0⟩] : List (View.Piece (Elt F) S1024x2048 .f32)), y ∈ pc.1.set :=
  View.cover_of_tiled [⟨whole, p0⟩] S1024x2048.size (by rfl) y

set_option maxHeartbeats 1000000 in
/-- The body on whole staging buffers — the inputs' holding `a` and `b`, the output's holding anything — runs to its
    end leaving the inputs as they were and the output at `tile a b`. -/
theorem sound_kernel (c : Dev nD) (E : Set ℕ) (i : grid0.Coords)
    (arg2 : Memref sig .tc .vmem S1024x64 .bf16) (harg2 : arg2.IsWhole)
    (arg3 : Memref sig .tc .vmem S2048x64 .bf16) (harg3 : arg3.IsWhole)
    (arg4 : Memref sig .tc .vmem S1024x2048 .f32) (harg4 : arg4.IsWhole)
    (a : Vec F S1024x64 .bf16) (b : Vec F S2048x64 .bf16) (K : PUnit → sProp 𝕄) :
    iprop(owns (c : Thread nD τ) arg2 fullShare a ∗ owns (c : Thread nD τ) arg3 fullShare b ∗ (∃ d, owns (c : Thread nD τ) arg4 fullShare d)
        ∗ (iprop(owns (c : Thread nD τ) arg2 fullShare a ∗ owns (c : Thread nD τ) arg3 fullShare b ∗ owns (c : Thread nD τ) arg4 fullShare (tile a b)) -∗ K ⟨⟩))
      ⊢ wp frame (wpE (defs₀ (F := F)) Variants.none c none) E (cc0__cdist_kernel i arg2 harg2 arg3 harg3 arg4 harg4) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

end Cert.KernelIdeal.Body

end
-- ==== Proof.KI.Run.lean ====
/-
  The pairwise-distance kernel's run: every weakly fair execution of the program terminates without a fault, its
  argument array ends unchanged, and the result array ends at the contents the write-backs leave.

  The program rounds the argument once (a host operation), then launches one pipelined region over an 8 x 4 grid.
  The rounded array is handed to the kernel TWICE — once cut into blocks of 1024 rows, indexed by the first grid
  coordinate, once into blocks of 2048 rows, indexed by the second — so two input windows read one array. Neither
  writes it; each holds HALF of the array's ownership for the length of the region, and the two halves are the whole
  again at the end. The third window is the output, cut into 1024 x 2048 tiles, one per grid point, each written back
  at its point.

  At a grid point each input's staging buffer holds that window's block of the rounded array (whether or not it was
  fetched at this very point: when it was not, the block index has not moved), the body leaves the inputs alone, and
  the output's buffer ends at `Body.tile` of the two blocks.
-/
import proofs.«150555_j22445499089117_2_alg».proof.Proof.KI.Body
import Idealize.ShloMosaic.Lib.Pipeline.Frame

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers' contents when the region is entered: the launch contents after the one host operation (the
    rounding of the argument into the array both input windows read). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes the rounded array, not the argument: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- Per core: the arrays as the region finds them; after the body each input's buffer at its block and the output's
    at `tile` of the two blocks; the invariant the core's scoped buffers that are no staging buffer (there is none);
    the rounded array held half by each of the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array, dealt between its two readers -/

/-- The two buffers behind the windows' arrays, whole at the region's entry, are the three windows' holdings: the
    rounded array's ownership halved between the two windows that read it, the result array whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v1] (by decide) (by decide), bigSep_W0]
  rw [(arr_whole0 0).set_eq_univ, (arr_whole0 2).set_eq_univ]
  show iprop((((c.tc : Thread nD τ).loc main_v0 ↦{fullShare} V m c main_v0) : sProp 𝕄)
      ∗ ((c.tc : Thread nD τ).loc main_v1 ↦{fullShare} V m c main_v1))
    ⊢ iprop(((c.tc : Thread nD τ).loc main_v0 ↦{fullShare.left} V m c main_v0)
    ∗ ((c.tc : Thread nD τ).loc main_v0 ↦{fullShare.right} V m c main_v0)
    ∗ ((c.tc : Thread nD τ).loc main_v1 ↦{fullShare} V m c main_v1))
  iintro ⟨H0, H1⟩
  ihave H0 := (pointsTo_share (PosShare.mem_left_op_right fullShare)).1 $$ H0
  icases H0 with ⟨Ha, Hb⟩
  isplitl [Ha]; · iexact Ha
  isplitl [Hb]; · iexact Hb
  iexact H1

/-! ## The invariant at the region's ends -/

theorem phi_in (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, H⟩; iexact H

theorem phi_out (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = Pipeline.scopedRest (Ix := Unit) (Name := ℕ) (U := UR sig nD τ) (Lvl := ℕ) (Val := Elt F) spec0 c from rfl]
  iintro H; isplitr; · iempintro
  iexact H

/-! ## The run -/

set_option backward.isDefEq.respectTransparency.types false in
/-- Every weakly fair execution of the program terminates; at the end every window's array holds what the
    write-backs leave (an input array its entry contents), and every other unscoped buffer what the region found. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := phi_in m) (hout := phi_out m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- The program runs and its argument ends unchanged: no window stages the argument array, so it is among the
    buffers the region passes by, and the host operation before the region did not write it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c))
    (run_main m ρ)

end Cert.KernelIdeal.Run

end
-- ==== Proof.KI.Tile.lean ====
/-
  The kernel's tile at an index, at the ideal instance.

  For input blocks `a` (1024 rows) and `b` (2048 rows) of width 64, the body's one stored value at (p, q) is

      √ max( Σ_k a[p,k]·a[p,k] + Σ_k b[q,k]·b[q,k] − 2·Σ_k a[p,k]·b[q,k] , 0 ).

  Three pieces of the body are not entrywise. The row sums of a's squares are kept as a column and spread along the
  columns, so at (p, q) they read row p's sum. The row sums of b's squares are kept as a column, laid down as a row
  and spread along the rows, so at (p, q) they read row q's sum. The matrix product contracts the 64 columns of both
  operands into a zero accumulator, so at (p, q) it is the inner product of a's row p with b's row q. Widening the
  16-bit entries to 32 bits is the identity on extended reals; everything else is entrywise.
-/
import proofs.«150555_j22445499089117_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.TcCoe Idealize.SL.Sem Idealize.ShloMosaic.ValueIdx

/-- Row sums of a 1024 x 64 array, kept as a column and spread along 2048 columns: at (p, q), row p's sum. -/
theorem rowSums_along_columns (v : FVec Ideal S1024x64 .f32) (p : Fin 1024) (q : Fin 2048) :
    broadcastTo S1024x2048 (shapeCast S1024x1 (multiReduction (F := Ideal) .add [1] S1024 v 0x00000000#32 reduces_S1024x64_S1024 (.inl rfl) rfl)
        shapeCasts_S1024_S1024x1) broadcasts_S1024x1_S1024x2048 (ix2 p q)
      = ∑ k : Fin 64, v (ix2 p k) := by
  refine (broadcastTo_apply _ broadcasts_S1024x1_S1024x2048 (ix2 p q) (ix2 p (0 : Fin 1)) fun ax => ?_).trans ?_
  · match ax with
    | ⟨0, _⟩ => show p.val = if (1024 : Nat) = 1 then 0 else p.val; rw [if_neg (by decide)]
    | ⟨1, _⟩ => show (0 : Nat) = if (1 : Nat) = 1 then 0 else q.val; rw [if_pos rfl]
  refine (shapeCast_apply _ shapeCasts_S1024_S1024x1 (ix2 p (0 : Fin 1)) (ix1 p) ?_).trans ?_
  · rw [Shape.rowMajor_val_one, Shape.rowMajor_val_two]
    show p.val = p.val * 1 + 0
    omega
  refine (Ideal.multiReduction_add_single v 0x00000000#32 reduces_S1024x64_S1024 (.inl rfl) rfl (ix1 p)).trans ?_
  exact Finset.sum_congr rfl fun k _ => congrArg v (funext fun a => Fin.ext (by match a with | ⟨0, _⟩ => rfl | ⟨1, _⟩ => rfl))

/-- Row sums of a 2048 x 64 array, kept as a column, laid down as a row and spread along 1024 rows: at (p, q), row
    q's sum. -/
theorem rowSums_along_rows (v : FVec Ideal S2048x64 .f32) (p : Fin 1024) (q : Fin 2048) :
    broadcastTo S1024x2048 (transpose S1x2048 [1, 0] (shapeCast S2048x1 (multiReduction (F := Ideal) .add [1] S2048 v 0x00000000#32 reduces_S2048x64_S2048 (.inl rfl) rfl)
        shapeCasts_S2048_S2048x1) transposes_S2048x1_p1_0_S1x2048) broadcasts_S1x2048_S1024x2048 (ix2 p q)
      = ∑ k : Fin 64, v (ix2 q k) := by
  refine (broadcastTo_1b_ab_apply _ broadcasts_S1x2048_S1024x2048 p q).trans ?_
  refine (transpose_apply [1, 0] _ transposes_S2048x1_p1_0_S1x2048 (ix2 (0 : Fin 1) q) (ix2 q (0 : Fin 1)) (fun b => match b with
    | ⟨0, _⟩ => rfl
    | ⟨1, _⟩ => rfl)).trans ?_
  refine (shapeCast_apply _ shapeCasts_S2048_S2048x1 (ix2 q (0 : Fin 1)) (ix1 q) ?_).trans ?_
  · rw [Shape.rowMajor_val_one, Shape.rowMajor_val_two]
    show q.val = q.val * 1 + 0
    omega
  refine (Ideal.multiReduction_add_single v 0x00000000#32 reduces_S2048x64_S2048 (.inl rfl) rfl (ix1 q)).trans ?_
  exact Finset.sum_congr rfl fun k _ => congrArg v (funext fun a => Fin.ext (by match a with | ⟨0, _⟩ => rfl | ⟨1, _⟩ => rfl))

/-- The product's dimension numbers: both operands contract their columns. -/
abbrev D := dot_S1024x64_S2048x64_S1024x2048_1_1_0_0_n_n

theorem lhs_row (i : S1024x2048.Idx) (k : D.contr.Idx) : (D.lhsIdx i k 0).val = (i 0).val := by
  unfold DotDims.lhsIdx
  rw [dif_neg (show ¬(0 : Fin S1024x64.rank) ∈ D.lhsBatch by decide), dif_pos (show (0 : Fin S1024x64.rank) ∈ D.lhsNonContracting by decide)]
  rfl
theorem lhs_col (i : S1024x2048.Idx) (k : D.contr.Idx) : (D.lhsIdx i k 1).val = (k ⟨0, by decide⟩).val :=
  D.lhsIdx_val_of_single rfl i k
theorem rhs_row (i : S1024x2048.Idx) (k : D.contr.Idx) : (D.rhsIdx i k 0).val = (i 1).val := by
  unfold DotDims.rhsIdx
  rw [dif_neg (show ¬(0 : Fin S2048x64.rank) ∈ D.rhsBatch by decide), dif_pos (show (0 : Fin S2048x64.rank) ∈ D.rhsNonContracting by decide)]
  rfl
theorem rhs_col (i : S1024x2048.Idx) (k : D.contr.Idx) : (D.rhsIdx i k 1).val = (k ⟨0, by decide⟩).val :=
  D.rhsIdx_val_of_single rfl i k

/-- The product into a zero accumulator at (p, q): the inner product of a's row p with b's row q. -/
theorem product_at (a : FVec Ideal S1024x64 .bf16) (b : FVec Ideal S2048x64 .bf16) (p : Fin 1024) (q : Fin 2048) :
    matmul (F := Ideal) D none a b (constant (F := Ideal) S1024x2048 .f32 0x00000000#32) (ix2 p q)
      = ∑ k : Fin 64, a (ix2 p k) * b (ix2 q k) := by
  refine (Ideal.matmul_constant_zero_apply D none a b (ix2 p q)).trans ?_
  rw [← Equiv.sum_comp (ValueIdx.contrEquiv1 D 64 rfl rfl).symm]
  refine Finset.sum_congr rfl fun k _ => ?_
  have hk := ValueIdx.contrEquiv1_symm_val D 64 rfl rfl k
  have el : D.lhsIdx (ix2 p q) ((ValueIdx.contrEquiv1 D 64 rfl rfl).symm k) = ix2 p k := funext fun ax => Fin.ext (by
    match ax with
    | ⟨0, _⟩ => exact lhs_row _ _
    | ⟨1, _⟩ => exact (lhs_col _ _).trans hk)
  have er : D.rhsIdx (ix2 p q) ((ValueIdx.contrEquiv1 D 64 rfl rfl).symm k) = ix2 q k := funext fun ax => Fin.ext (by
    match ax with
    | ⟨0, _⟩ => exact rhs_row _ _
    | ⟨1, _⟩ => exact (rhs_col _ _).trans hk)
  rw [el, er]

/-- The body's stored value at (p, q). -/
theorem pay_at (a : FVec Ideal S1024x64 .bf16) (b : FVec Ideal S2048x64 .bf16) (p : Fin 1024) (q : Fin 2048) :
    k0_pay1 (F := Ideal) a b (ix2 p q)
      = Ideal.sqrt (max ((∑ k : Fin 64, a (ix2 p k) * a (ix2 p k)) + (∑ k : Fin 64, b (ix2 q k) * b (ix2 q k))
          - Ideal.ofBits .f32 0x40000000#32 * ∑ k : Fin 64, a (ix2 p k) * b (ix2 q k)) (Ideal.ofBits .f32 0x00000000#32)) := by
  unfold k0_pay1
  rw [shapeCast_self, shapeCast_self]
  show Ideal.sqrt (max (_ + _ - Ideal.ofBits .f32 0x40000000#32 * _) (Ideal.ofBits .f32 0x00000000#32)) = _
  refine congrArg Ideal.sqrt (congrArg (max · _) ?_)
  refine congrArg₂ (· - ·) (congrArg₂ (· + ·) ?_ ?_) (congrArg (_ * ·) ?_)
  · exact rowSums_along_columns _ p q
  · exact rowSums_along_rows _ p q
  · exact product_at a b p q

end Cert.KernelIdeal.Tile

end
-- ==== Proof.Spec.lean ====
/-
  The pairwise Euclidean distance of the rows of an 8192 x 64 array, as one function of the array, index by index,
  over the extended reals: entry (r, s) is

      √ max( ‖x_r‖² + ‖x_s‖² − 2·⟨x_r, x_s⟩ , 0 ),

  with ‖x_r‖² = Σ_k x[r,k]·x[r,k] and ⟨x_r, x_s⟩ = Σ_k x[r,k]·x[s,k], sums over the 64 columns. The factor 2 and the
  clamp's 0 are kept as the float words both programs print (0x40000000, 0x00000000): the same word stands on
  both sides and is never evaluated.

  Both programs compute this expression in this very arrangement — the two squared norms added first, twice the
  inner product subtracted, the clamp, the root — so no law of the extended reals beyond 0 + a = a is needed to
  join them, and nothing is asked of the entries (they may be infinite).
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The argument's shape: 8192 rows of 64 columns. -/
abbrev Rows : Shape := ⟨2, ![8192, 64]⟩
/-- The result's shape: one entry per ordered pair of rows. -/
abbrev Pairs : Shape := ⟨2, ![8192, 8192]⟩

/-- The squared norm of row `r`. -/
def sqNorm (x : Rows.Idx → EReal) (r : Fin 8192) : EReal := ∑ k : Fin 64, x (ix2 r k) * x (ix2 r k)

/-- The inner product of rows `r` and `s`. -/
def inner (x : Rows.Idx → EReal) (r s : Fin 8192) : EReal := ∑ k : Fin 64, x (ix2 r k) * x (ix2 s k)

/-- The distance matrix: entry `i = (r, s)` is the root of the clamped norm expansion. -/
def dist (x : Rows.Idx → EReal) : Pairs.Idx → EReal := fun i =>
  Ideal.sqrt (max (sqNorm x (i 0) + sqNorm x (i 1) - Ideal.ofBits .f32 0x40000000#32 * inner x (i 0) (i 1))
    (Ideal.ofBits .f32 0x00000000#32))

end Cert.Dist

end
-- ==== Proof.KI.Result.lean ====
/-
  The pairwise-distance kernel's result array, at the ideal instance: after the run it is the distance matrix of the
  argument.

  Grid point t = (g0, g1) of the 8 x 4 grid reads rows 1024·g0 … 1024·g0 + 1023 of the rounded array through the
  first window and rows 2048·g1 … 2048·g1 + 2047 through the second, and writes back the 1024 x 2048 tile of the
  result at block (g0, g1). Entry (p, q) of the tile is the distance of row 1024·g0 + p from row 2048·g1 + q, which
  is the distance matrix's entry at the tile's position: what the point writes back is its block of ONE array, the
  distance matrix of the rounded array. The 32 tiles cover the 8192 x 8192 result (the tile holding entry (r, s) is
  block (r / 1024, s / 2048)), so the result array ends as that matrix. At the ideal instance rounding to 16 bits is
  the identity, so the rounded array is the argument.
-/
import proofs.«150555_j22445499089117_2_alg».proof.Proof.KI.Run
import proofs.«150555_j22445499089117_2_alg».proof.Proof.KI.Tile
import proofs.«150555_j22445499089117_2_alg».proof.Proof.Spec
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Body Cert.KernelIdeal.Run
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the first window's block row is the tile's block row, the second
    window's block row is the tile's block column, neither moves along the columns of the input, and the tile's
    block indices stay inside the 8 x 4 blocks. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 3 :=
  (by decide +kernel : ∀ t : Fin grid0.N, _)

/-- Every block of the result is some grid point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- What grid point `t` writes back is its block of the distance matrix of the rounded array. -/
theorem flushed_eq (c : Dev nD) (t : Fin cfg0.N) :
    (dats m 0 c).flushed 2 t = ((cfg0.win 2).blk t).view.read (Elt Ideal) (Cert.Dist.dist (V m c main_v0)) := by
  show (cfg0.win 2).cut (grid0.coords t) ((dats m 0 c).after 2 t) = _
  rw [after0_2]
  unfold tile
  rw [View.canon_unit_zero hz]
  simp only [View.ld_unit_zero (S := S1024x64) hz, View.ld_unit_zero (S := S2048x64) hz]
  obtain ⟨e0, e1, e2, e3, e4, e5⟩ := idx_facts t
  funext j
  obtain ⟨p, q, rfl⟩ : ∃ (p : Fin 1024) (q : Fin 2048), j = ix2 p q := ⟨j 0, j 1, eq_ix2 j⟩
  show k0_pay1 (F := Ideal) (iblk m c 0 t) (iblk m c 1 t) (ix2 p q)
    = Cert.Dist.dist (V m c main_v0) (((cfg0.win 2).blk t).view.emb (ix2 p q))
  refine (Tile.pay_at (iblk m c 0 t) (iblk m c 1 t) p q).trans ?_
  unfold Cert.Dist.dist Cert.Dist.sqNorm Cert.Dist.inner
  have ha : ∀ k : Fin 64, iblk m c 0 t (ix2 p k)
      = V m c main_v0 (ix2 ((((cfg0.win 2).blk t).view.emb (ix2 p q)) 0) k) := fun k => by
    show V m c main_v0 (((cfg0.win 0).blk t).view.emb (ix2 p k)) = _
    refine congrArg _ (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 64 + 1 * k.val = k.val
      omega
  have hb : ∀ k : Fin 64, iblk m c 1 t (ix2 q k)
      = V m c main_v0 (ix2 ((((cfg0.win 2).blk t).view.emb (ix2 p q)) 1) k) := fun k => by
    show V m c main_v0 (((cfg0.win 1).blk t).view.emb (ix2 q k)) = _
    refine congrArg _ (funext fun a => Fin.ext ?_)
    match a with
    | ⟨0, _⟩ =>
      show win0_1.index t (0 : Fin 2) * 2048 + 1 * q.val = win0_2.index t (1 : Fin 2) * 2048 + 1 * q.val
      omega
    | ⟨1, _⟩ =>
      show win0_1.index t (1 : Fin 2) * 64 + 1 * k.val = k.val
      omega
  simp only [ha, hb]

/-- An index of the result is in point `t`'s tile iff each coordinate is in the tile's range on its axis. -/
theorem mem_blk (t : Fin cfg0.N) (i : S8192x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v1).slice (win0_2.rect t)).set ↔ _
  rw [View.set_slice_whole, Rect.mem_set_unit]
  exact Iff.rfl

/-- The tiles cover the result: entry (r, s) lies in the tile at block (r / 1024, s / 2048). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- The result array after the run is the distance matrix of the rounded array. -/
theorem final (c : Dev nD) : (dats m 0 c).arrAt 2 cfg0.N = Cert.Dist.dist (V m c main_v0) :=
  (dats m 0 c).arrAt_eq_of_cover 2 (Cert.Dist.dist (V m c main_v0)) (fun t _ => flushed_eq m c t) covered

/-- The rounded array, at the ideal instance, is the argument: a change of float format is the identity. -/
theorem rounded_eq (c : Dev nD) :
    (V m c main_v0 : Cert.Dist.Rows.Idx → EReal) = m ((c : Thread nD τ).loc main_arg0) := by
  dsimp only [V, hostOps0]; after_results; rfl

/-- The run, read: the result array ends as the distance matrix of the argument, the argument unchanged. -/
theorem run : θ_run defs (onTc (τ := τ) (main (F := Ideal))) ⟨m, fun _ => 0, ρ⟩ fun r => ∀ c : Dev nD,
      r.2.mem ((c : Thread nD τ).loc main_v1) = Cert.Dist.dist (m ((c : Thread nD τ).loc main_arg0))
      ∧ r.2.mem ((c : Thread nD τ).loc main_arg0) = m ((c : Thread nD τ).loc main_arg0) :=
  (θ_run defs _ _).mono (fun r h c =>
      ⟨((h c).1 2).trans ((final m c).trans (congrArg Cert.Dist.dist (rounded_eq m c))),
       ((h c).2 main_arg0 (Pipeline.mem_restRefs_of main_arg0 (by decide) (by decide))).trans (V_main_arg0 m c)⟩)
    (run_main m ρ)

end Cert.KernelIdeal.Result

end
-- ==== Proof.Ref.lean ====
/-
  The reference program's result is the distance matrix `Cert.Dist.dist` of its argument.

  The reference squares the argument entrywise and sums each row from the zero word (the squared norms), forms the
  product of the argument with its transpose (the inner products: entry (r, s) sums x[r,k]·xᵀ[k,s] = x[r,k]·x[s,k]),
  spreads the norms along rows and along columns, adds them, subtracts twice the product, clamps at zero and takes
  the root. Read at an index (r, s) every stage is the corresponding part of `dist`; the one fact used beyond
  re-indexing is that the zero word is 0, the row sums' initial value.
-/
import proofs.«150555_j22445499089117_2_alg».proof.Proof.Gen.ReferenceIdeal.Read
import proofs.«150555_j22445499089117_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The row whose squared norm reaches entry `i` along the first axis is row `i 0`; -/
theorem row_of_fst (i : S8192x8192.Idx) (k : Fin 64) :
    idx_main_v1 (idx_main_v4 (idx_main_v6 i)) k = ix2 (i 0) k :=
  funext fun a => Fin.ext (by match a with | ⟨0, _⟩ => rfl | ⟨1, _⟩ => rfl)

/-- along the second axis, row `i 1`. -/
theorem row_of_snd (i : S8192x8192.Idx) (k : Fin 64) :
    idx_main_v1 (idx_main_v5 (idx_main_v7 i)) k = ix2 (i 1) k :=
  funext fun a => Fin.ext (by match a with | ⟨0, _⟩ => rfl | ⟨1, _⟩ => rfl)

/-- The product's left factor at (i, k) is x[i 0, k]; -/
theorem left_of (i : S8192x8192.Idx) (k : Fin 64) : lidx_main_v3 i k = ix2 (i 0) k :=
  funext fun a => Fin.ext (by match a with | ⟨0, _⟩ => rfl | ⟨1, _⟩ => rfl)

/-- its right factor, read through the transpose, is x[i 1, k]. -/
theorem right_of (i : S8192x8192.Idx) (k : Fin 64) : idx_main_v2 (ridx_main_v3 i k) = ix2 (i 1) k :=
  funext fun a => Fin.ext (by match a with | ⟨0, _⟩ => rfl | ⟨1, _⟩ => rfl)

/-- The reference's last stage is the distance matrix of the argument. -/
theorem ref_eq (x : (⟨S8192x64, .f32⟩ : BufTy).Contents (Elt Ideal)) :
    val_main_v14 (F := Ideal) x = Cert.Dist.dist x := by
  funext i
  rw [val_main_v14_apply, val_main_v13_apply, val_main_v11_apply, val_main_v8_apply, val_main_v6_apply, val_main_v4_apply,
    val_main_v7_apply, val_main_v5_apply, val_main_v10_apply, val_main_v9_apply, val_main_cst_0_apply, val_main_v3_apply,
    val_main_v12_apply, val_main_cst_1_apply]
  simp only [val_main_v1_apply, val_main_v0_apply, val_main_v2_apply, val_main_cst_apply, row_of_fst, row_of_snd, left_of, right_of,
    Ideal.hostUnary_sqrt_def, Ideal.maximumf_def, Ideal.subf_def, Ideal.addf_def, Ideal.mulf_def, Ideal.ofBits_def,
    Ideal.ofBits_zero_f32, zero_add]
  unfold Cert.Dist.dist Cert.Dist.sqNorm Cert.Dist.inner
  simp only [val_main_v0, Ideal.ofBits_zero_f32]
  rfl

end Cert.ReferenceIdeal.RefValue

end
-- ==== Proof.lean ====
/-
  Pairwise Euclidean distance of the rows of an 8192 x 64 array: a tiled kernel against a plain reference, equal
  over the extended reals.

  Both programs compute, for every ordered pair of rows (r, s),

      √ max( ‖x_r‖² + ‖x_s‖² − 2·⟨x_r, x_s⟩ , 0 ).

  The reference does it on whole arrays: row sums of the entrywise square, the product of the array with its
  transpose, the norms spread along rows and columns, the clamp and the root. The kernel first rounds the array to
  16 bits, then walks an 8 x 4 grid; at grid point (g0, g1) it reads 1024 rows and 2048 rows of the rounded array,
  recomputes the norms of both groups of rows from them, forms their 1024 x 2048 block of inner products, and
  writes the corresponding tile of the result. At the ideal instance a change of float format is the identity, so
  the rounded array is the argument, a tile's entry is the distance matrix's entry at the tile's position, and the
  32 tiles cover the result: the kernel's result array is the distance matrix of the argument
  (`Cert.KernelIdeal.Result.run`). The reference's result is the same matrix (`Cert.ReferenceIdeal.RefValue.ref_eq`),
  both sides adding and multiplying in the same arrangement, so the only law used is 0 + a = a for the row sums'
  initial value; nothing is asked of the entries, which may be infinite.

  Each program runs to its end without a fault and leaves its argument unchanged. For the two kernels this is the
  pipelined region's run, in which the two input windows read ONE array and each holds half of its ownership
  (`Cert.Kernel.Run.frame`, `Cert.KernelIdeal.Run.frame`); for the reference it is the straight line of its host
  operations. The idealized kernel is the kernel's own text read at the ideal instance: nothing was rewritten.
-/
import proofs.«150555_j22445499089117_2_alg».proof.Defs
import proofs.«150555_j22445499089117_2_alg».proof.Proof.Gen.Kernel
import proofs.«150555_j22445499089117_2_alg».proof.Proof.Gen.KernelIdeal
import proofs.«150555_j22445499089117_2_alg».proof.Proof.Gen.ReferenceIdeal
import proofs.«150555_j22445499089117_2_alg».proof.Proof.Gen.Pre_finite_inputs
import proofs.«150555_j22445499089117_2_alg».proof.Proof.Gen.ReferenceIdeal.Run
import proofs.«150555_j22445499089117_2_alg».proof.Proof.Gen.ReferenceIdeal.Read
import proofs.«150555_j22445499089117_2_alg».proof.Proof.K.Run
import proofs.«150555_j22445499089117_2_alg».proof.Proof.KI.Result
import proofs.«150555_j22445499089117_2_alg».proof.Proof.Ref
import Idealize.ShloMosaic.Adequacy
import Idealize.ShloMosaic.Init

noncomputable section

namespace Cert.Proof

open Idealize.ShloMosaic Idealize.ShloMosaic.TcCoe Idealize.SL.Sem

/-- The kernel, at the word level, runs and leaves its argument unchanged. -/
theorem frame_kernel : Cert.frame_Kernel := fun m ρ _ => Cert.Kernel.Run.frame m ρ

/-- So does the kernel read at the ideal instance. -/
theorem frame_kernelIdeal : Cert.frame_KernelIdeal := fun m ρ _ => Cert.KernelIdeal.Run.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's text unchanged: there is no rewrite to account for. -/
theorem preserves : Cert.preserves_Kernel_KernelIdeal := trivial

/-- From memories that agree on the argument, both programs end with the distance matrix of that argument. -/
theorem algebraic : Cert.algebraic_KernelIdeal_ReferenceIdeal := by
  intro m ρ m' ρ' _ hagree
  refine ⟨fun c => Cert.Dist.dist (m ((c.tc : Thread Cert.KernelIdeal.nD Cert.KernelIdeal.τ).loc Cert.KernelIdeal.main_arg0)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
